-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x4096 : Shape := ⟨3, ![4, 2048, 4096]⟩
abbrev S11008x4096 : Shape := ⟨2, ![11008, 4096]⟩
abbrev S4096x11008 : Shape := ⟨2, ![4096, 11008]⟩
abbrev S_ : Shape := ⟨0, ![]⟩

class Facts : Prop where
  bcast_S_S4x2048x4096 : S_.BroadcastsInDim S4x2048x4096 (![] : Fin 0 → Fin S4x2048x4096.rank)
  reducesTo_S4x2048x4096_S_d0_1_2 : S4x2048x4096.ReducesTo [0, 1, 2] S_
  h_S_ : 0 < S_.numel
  bcast_S_S11008x4096 : S_.BroadcastsInDim S11008x4096 (![] : Fin 0 → Fin S11008x4096.rank)
  reducesTo_S11008x4096_S_d0_1 : S11008x4096.ReducesTo [0, 1] S_
  bcast_S_S4096x11008 : S_.BroadcastsInDim S4096x11008 (![] : Fin 0 → Fin S4096x11008.rank)
  reducesTo_S4096x11008_S_d0_1 : S4096x11008.ReducesTo [0, 1] S_

variable [Facts]

def fn_part1 {F : FTy → Type} [FloatOps F] (main_v13 : IVec S_ 1) (main_v16 : IVec S4096x11008 1) : IVec S_ 1 :=
  let main_c_5 : IVec S_ 1 := constantI S_ 1 1#1
  let main_v17 : IVec S_ 1 := (fun x v => Host.reduce IntOp.andi x v reducesTo_S4096x11008_S_d0_1 h_S_) main_v16 main_c_5
  let main_v18 : IVec S_ 1 := andi main_v13 main_v17
  main_v18

def fn {F : FTy → Type} [FloatOps F] (main_arg0 : FVec F S4x2048x4096 .f32) (main_arg1 : FVec F S11008x4096 .f32) (main_arg2 : FVec F S11008x4096 .f32) (main_arg3 : FVec F S4096x11008 .f32) : IVec S_ 1 :=
  let main_v0 : FVec F S4x2048x4096 .f32 := Host.absf main_arg0
  let main_cst : FVec F S_ .f32 := constant S_ .f32 0x7F800000#32
  let main_v1 : FVec F S4x2048x4096 .f32 := broadcastInDim S4x2048x4096 ![] bcast_S_S4x2048x4096 main_cst
  let main_v2 : IVec S4x2048x4096 1 := cmpf .olt main_v0 main_v1
  let main_c : IVec S_ 1 := constantI S_ 1 1#1
  let main_v3 : IVec S_ 1 := (fun x v => Host.reduce IntOp.andi x v reducesTo_S4x2048x4096_S_d0_1_2 h_S_) main_v2 main_c
  let main_v4 : FVec F S11008x4096 .f32 := Host.absf main_arg1
  let main_cst_0 : FVec F S_ .f32 := constant S_ .f32 0x7F800000#32
  let main_v5 : FVec F S11008x4096 .f32 := broadcastInDim S11008x4096 ![] bcast_S_S11008x4096 main_cst_0
  let main_v6 : IVec S11008x4096 1 := cmpf .olt main_v4 main_v5
  let main_c_1 : IVec S_ 1 := constantI S_ 1 1#1
  let main_v7 : IVec S_ 1 := (fun x v => Host.reduce IntOp.andi x v reducesTo_S11008x4096_S_d0_1 h_S_) main_v6 main_c_1
  let main_v8 : IVec S_ 1 := andi main_v3 main_v7
  let main_v9 : FVec F S11008x4096 .f32 := Host.absf main_arg2
  let main_cst_2 : FVec F S_ .f32 := constant S_ .f32 0x7F800000#32
  let main_v10 : FVec F S11008x4096 .f32 := broadcastInDim S11008x4096 ![] bcast_S_S11008x4096 main_cst_2
  let main_v11 : IVec S11008x4096 1 := cmpf .olt main_v9 main_v10
  let main_c_3 : IVec S_ 1 := constantI S_ 1 1#1
  let main_v12 : IVec S_ 1 := (fun x v => Host.reduce IntOp.andi x v reducesTo_S11008x4096_S_d0_1 h_S_) main_v11 main_c_3
  let main_v13 : IVec S_ 1 := andi main_v8 main_v12
  let main_v14 : FVec F S4096x11008 .f32 := Host.absf main_arg3
  let main_cst_4 : FVec F S_ .f32 := constant S_ .f32 0x7F800000#32
  let main_v15 : FVec F S4096x11008 .f32 := broadcastInDim S4096x11008 ![] bcast_S_S4096x11008 main_cst_4
  let main_v16 : IVec S4096x11008 1 := cmpf .olt main_v14 main_v15
  fn_part1 (F := F) main_v13 main_v16
-- ==== Kernel.lean ====
abbrev S4x2048x4096 : Shape := ⟨3, ![4, 2048, 4096]⟩
abbrev S11008x4096 : Shape := ⟨2, ![11008, 4096]⟩
abbrev S4096x11008 : Shape := ⟨2, ![4096, 11008]⟩
abbrev S8192x4096 : Shape := ⟨2, ![8192, 4096]⟩
abbrev S512x4096 : Shape := ⟨2, ![512, 4096]⟩
abbrev S256x4096 : Shape := ⟨2, ![256, 4096]⟩
abbrev S4096x256 : Shape := ⟨2, ![4096, 256]⟩
abbrev S512x256 : Shape := ⟨2, ![512, 256]⟩

abbrev nBuf : Space → Nat
  | .hbm => 11
  | .vmem => 9
  | .smem => 0
  | _ => 0

abbrev bufTy : (tb : Table) → Fin (tcTables nBuf tb) → BufTy
  | .hbm, ⟨0, _⟩ => ⟨S4x2048x4096, .f32⟩
  | .hbm, ⟨1, _⟩ => ⟨S11008x4096, .f32⟩
  | .hbm, ⟨2, _⟩ => ⟨S11008x4096, .f32⟩
  | .hbm, ⟨3, _⟩ => ⟨S4096x11008, .f32⟩
  | .hbm, ⟨4, _⟩ => ⟨S8192x4096, .f32⟩
  | .hbm, ⟨5, _⟩ => ⟨S8192x4096, .bf16⟩
  | .hbm, ⟨6, _⟩ => ⟨S11008x4096, .bf16⟩
  | .hbm, ⟨7, _⟩ => ⟨S11008x4096, .bf16⟩
  | .hbm, ⟨8, _⟩ => ⟨S4096x11008, .bf16⟩
  | .hbm, ⟨9, _⟩ => ⟨S8192x4096, .f32⟩
  | .hbm, ⟨10, _⟩ => ⟨S4x2048x4096, .f32⟩
  | .local _ .vmem, ⟨0, _⟩ => ⟨S512x4096, .bf16⟩
  | .local _ .vmem, ⟨1, _⟩ => ⟨S512x4096, .bf16⟩
  | .local _ .vmem, ⟨2, _⟩ => ⟨S256x4096, .bf16⟩
  | .local _ .vmem, ⟨3, _⟩ => ⟨S256x4096, .bf16⟩
  | .local _ .vmem, ⟨4, _⟩ => ⟨S256x4096, .bf16⟩
  | .local _ .vmem, ⟨5, _⟩ => ⟨S256x4096, .bf16⟩
  | .local _ .vmem, ⟨6, _⟩ => ⟨S4096x256, .bf16⟩
  | .local _ .vmem, ⟨7, _⟩ => ⟨S4096x256, .bf16⟩
  | .local _ .vmem, ⟨8, _⟩ => ⟨S512x4096, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8

abbrev nD : Nat := 1
abbrev τ : Topo := Topo.v7x

variable {F : FTy → Type} [FloatOps F]

abbrev grid0 : Pipeline.Grid := ⟨2, ![16, 43], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S256x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S256x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S4096x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S512x4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, false]

class Facts₀ : Prop where
  shapeCasts_S4x2048x4096_S8192x4096 : S4x2048x4096.ShapeCasts S8192x4096
  bitsLt_bf16_f32 : FTy.bits .bf16 < FTy.bits .f32
  inb_S512x4096_S512x4096_0_0 : ∀ a, (![0, 0] : Fin 2 → Nat) a + S512x4096.size a ≤ S512x4096.size a
  h_S512x4096 : 0 < S512x4096.numel
  shapeCasts_S512x4096_S512x4096 : S512x4096.ShapeCasts S512x4096
  inb_S256x4096_S256x4096_0_0 : ∀ a, (![0, 0] : Fin 2 → Nat) a + S256x4096.size a ≤ S256x4096.size a
  h_S256x4096 : 0 < S256x4096.numel
  shapeCasts_S256x4096_S256x4096 : S256x4096.ShapeCasts S256x4096
  inb_S4096x256_S4096x256_0_0 : ∀ a, (![0, 0] : Fin 2 → Nat) a + S4096x256.size a ≤ S4096x256.size a
  h_S4096x256 : 0 < S4096x256.numel
  shapeCasts_S4096x256_S4096x256 : S4096x256.ShapeCasts S4096x256
  shapeCasts_S8192x4096_S4x2048x4096 : S8192x4096.ShapeCasts S4x2048x4096
  dot_S512x4096_S256x4096_S512x256_1_1_0_0_n_n_wf : DotDims.WF S512x4096 S256x4096 S512x256 [1] [1] [0] [0] [] []
  dot_S512x256_S4096x256_S512x4096_1_1_0_0_n_n_wf : DotDims.WF S512x256 S4096x256 S512x4096 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x4096.size a ≤ S8192x4096.size a
  hwx0_0 : ∀ i : grid0.Coords, EltTy.bits .bf16 = 32 ∨ (Rect.block (s := S8192x4096) S512x4096.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x4096.size a ≤ S11008x4096.size a
  hwx0_1 : ∀ i : grid0.Coords, EltTy.bits .bf16 = 32 ∨ (Rect.block (s := S11008x4096) S256x4096.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x4096.size a ≤ S11008x4096.size a
  hwx0_2 : ∀ i : grid0.Coords, EltTy.bits .bf16 = 32 ∨ (Rect.block (s := S11008x4096) S256x4096.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4096x256.size a ≤ S4096x11008.size a
  hwx0_3 : ∀ i : grid0.Coords, EltTy.bits .bf16 = 32 ∨ (Rect.block (s := S4096x11008) S4096x256.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S512x4096.size a ≤ S8192x4096.size a
  hwx0_4 : ∀ i : grid0.Coords, EltTy.bits .f32 = 32 ∨ (Rect.block (s := S8192x4096) S512x4096.size (cc0_transform_4 i) (hinb0_4 i)).WholeWords (EltTy.packing .f32)

variable [Facts₀]

def dot_S512x4096_S256x4096_S512x256_1_1_0_0_n_n : DotDims S512x4096 S256x4096 S512x256 where
  lhsContracting := [1]
  rhsContracting := [1]
  lhsNonContracting := [0]
  rhsNonContracting := [0]
  lhsBatch := []
  rhsBatch := []
  wf := dot_S512x4096_S256x4096_S512x256_1_1_0_0_n_n_wf
def dot_S512x256_S4096x256_S512x4096_1_1_0_0_n_n : DotDims S512x256 S4096x256 S512x4096 where
  lhsContracting := [1]
  rhsContracting := [1]
  lhsNonContracting := [0]
  rhsNonContracting := [0]
  lhsBatch := []
  rhsBatch := []
  wf := dot_S512x256_S4096x256_S512x4096_1_1_0_0_n_n_wf

abbrev win0_0 : Pipeline.Window sig grid0 :=
  Pipeline.Window.ofSpec (Memref.whole main_v1) S512x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S256x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3) S256x4096.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v4) S4096x256.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v5) S512x4096.size cc0_transform_4 reads0_4 true true 1 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S4x2048x4096 : Shape := ⟨3, ![4, 2048, 4096]⟩
abbrev S11008x4096 : Shape := ⟨2, ![11008, 4096]⟩
abbrev S4096x11008 : Shape := ⟨2, ![4096, 11008]⟩
abbrev S4x2048x11008 : Shape := ⟨3, ![4, 2048, 11008]⟩
abbrev S_ : Shape := ⟨0, ![]⟩

abbrev nBuf : Space → Nat
  | .hbm => 17
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S11008x4096, .f32⟩
  | .hbm, ⟨2, _⟩ => ⟨S11008x4096, .f32⟩
  | .hbm, ⟨3, _⟩ => ⟨S4096x11008, .f32⟩
  | .hbm, ⟨4, _⟩ => ⟨S4x2048x11008, .f32⟩
  | .hbm, ⟨5, _⟩ => ⟨S4x2048x11008, .f32⟩
  | .hbm, ⟨6, _⟩ => ⟨S4x2048x11008, .f32⟩
  | .hbm, ⟨7, _⟩ => ⟨S4x2048x11008, .f32⟩
  | .hbm, ⟨8, _⟩ => ⟨S_, .f32⟩
  | .hbm, ⟨9, _⟩ => ⟨S4x2048x11008, .f32⟩
  | .hbm, ⟨10, _⟩ => ⟨S4x2048x11008, .f32⟩
  | .hbm, ⟨11, _⟩ => ⟨S_, .f32⟩
  | .hbm, ⟨12, _⟩ => ⟨S4x2048x11008, .f32⟩
  | .hbm, ⟨13, _⟩ => ⟨S4x2048x11008, .f32⟩
  | .hbm, ⟨14, _⟩ => ⟨S4x2048x11008, .f32⟩
  | .hbm, ⟨15, _⟩ => ⟨S4x2048x11008, .f32⟩
  | .hbm, ⟨16, _⟩ => ⟨S4x2048x4096, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_call0_v0 : Ref sig .tc := ⟨.hbm, 6, rfl⟩
abbrev main_call0_v1 : Ref sig .tc := ⟨.hbm, 7, rfl⟩
abbrev main_call0_cst : Ref sig .tc := ⟨.hbm, 8, rfl⟩
abbrev main_call0_v2 : Ref sig .tc := ⟨.hbm, 9, rfl⟩
abbrev main_call0_v3 : Ref sig .tc := ⟨.hbm, 10, rfl⟩
abbrev main_call0_cst_0 : Ref sig .tc := ⟨.hbm, 11, rfl⟩
abbrev main_call0_v4 : Ref sig .tc := ⟨.hbm, 12, rfl⟩
abbrev main_call0_v5 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩

abbrev nD : Nat := 1
abbrev τ : Topo := Topo.v7x

variable {F : FTy → Type} [FloatOps F]

class Facts₀ : Prop where
  bcast_S_S4x2048x11008 : S_.BroadcastsInDim S4x2048x11008 (![] : Fin 0 → Fin S4x2048x11008.rank)
  dot_S4x2048x4096_S11008x4096_S4x2048x11008_2_1_01_0_n_n_wf : DotDims.WF S4x2048x4096 S11008x4096 S4x2048x11008 [2] [1] [0, 1] [0] [] []
  dot_S4x2048x11008_S4096x11008_S4x2048x4096_2_1_01_0_n_n_wf : DotDims.WF S4x2048x11008 S4096x11008 S4x2048x4096 [2] [1] [0, 1] [0] [] []

variable [Facts₀]

def dot_S4x2048x4096_S11008x4096_S4x2048x11008_2_1_01_0_n_n : DotDims S4x2048x4096 S11008x4096 S4x2048x11008 where
  lhsContracting := [2]
  rhsContracting := [1]
  lhsNonContracting := [0, 1]
  rhsNonContracting := [0]
  lhsBatch := []
  rhsBatch := []
  wf := dot_S4x2048x4096_S11008x4096_S4x2048x11008_2_1_01_0_n_n_wf
def dot_S4x2048x11008_S4096x11008_S4x2048x4096_2_1_01_0_n_n : DotDims S4x2048x11008 S4096x11008 S4x2048x4096 where
  lhsContracting := [2]
  rhsContracting := [1]
  lhsNonContracting := [0, 1]
  rhsNonContracting := [0]
  lhsBatch := []
  rhsBatch := []
  wf := dot_S4x2048x11008_S4096x11008_S4x2048x4096_2_1_01_0_n_n_wf

class Facts : Prop extends Facts₀ where

variable [Facts]
-- ==== Proof.LibMatmulNT.lean ====
/-
  A matrix product of a row-major `M × K` block against an `N × K` block whose LAST axis is contracted (the
  right operand enters transposed: the left operand's axis 1 is contracted with the right operand's axis 1),
  accumulated into the zero block and read at the extended reals: entry `(p, q)` of the result is the sum over
  `k` of `x[p, k] · w[q, k]`.  The contraction index of the matrix unit ranges over a one-axis shape of extent
  `K`; it is re-indexed to `Fin K`, and the two operand indices that the dimension record computes are named
  coordinate by coordinate.  General in the three extents and in the operands' float formats.
-/
import Idealize.ShloMosaic.PureOps.Ideal.Laws
import Idealize.ShloMosaic.Lib.ValueIdx

noncomputable section

open scoped BigOperators

namespace LibMatmulNT

open Idealize.ShloMosaic Idealize.ShloMosaic.ValueIdx

variable (M K N : Nat)

/-- The left operand's index at output index `(p, q)` and contraction index `k` is `(p, k)`. -/
theorem lhsIdx_eq (p : Fin M) (q : Fin N) (k : Fin K) :
    (DotDims.transposedRhs M K N).lhsIdx (ix2 p q) ((contrEquiv1 (DotDims.transposedRhs M K N) K rfl rfl).symm k) = ix2 p k := by
  have hk := contrEquiv1_symm_val (DotDims.transposedRhs M K N) K rfl rfl k
  funext a
  apply Fin.ext
  match a with
  | ⟨0, _⟩ => rfl
  | ⟨1, _⟩ => exact ((DotDims.transposedRhs M K N).lhsIdx_val_of_single rfl _ _).trans hk

/-- The right operand's index at output index `(p, q)` and contraction index `k` is `(q, k)`: its row is the
    output's column. -/
theorem rhsIdx_eq (p : Fin M) (q : Fin N) (k : Fin K) :
    (DotDims.transposedRhs M K N).rhsIdx (ix2 p q) ((contrEquiv1 (DotDims.transposedRhs M K N) K rfl rfl).symm k) = ix2 q k := by
  have hk := contrEquiv1_symm_val (DotDims.transposedRhs M K N) K rfl rfl k
  funext a
  apply Fin.ext
  match a with
  | ⟨0, _⟩ => rfl
  | ⟨1, _⟩ => exact ((DotDims.transposedRhs M K N).rhsIdx_val_of_single rfl _ _).trans hk

/-- Entry `(p, q)` of `x · wᵀ` accumulated into zero is `∑ k, x[p, k] · w[q, k]` on the extended reals. -/
theorem matmul_zero_apply {φ₁ φ₂ : FTy} (prec : Option ContractPrecision)
    (x : FVec Ideal ⟨2, ![M, K]⟩ φ₁) (w : FVec Ideal ⟨2, ![N, K]⟩ φ₂) (p : Fin M) (q : Fin N) :
    FloatOps.matmul (DotDims.transposedRhs M K N) prec x w (constant (F := Ideal) ⟨2, ![M, N]⟩ .f32 0x00000000#32) (ix2 p q)
      = ∑ k : Fin K, x (ix2 p k) * w (ix2 q k) := by
  rw [Ideal.matmul_constant_zero_apply, ← Equiv.sum_comp (contrEquiv1 (DotDims.transposedRhs M K N) K rfl rfl).symm]
  refine Finset.sum_congr rfl fun k _ => ?_
  rw [lhsIdx_eq, rhsIdx_eq]

end LibMatmulNT

end
-- ==== Proof.Swiglu.lean ====
/-
  The gated feed-forward layer on the extended reals, with no program in sight.

  For activations `x` of 4 · 2048 tokens with 4096 features, two weight matrices `wg`, `wu` of 11008 rows and a third
  `wd` of 4096 rows of 11008 entries, the layer sends token `r` and output feature `q` to

      ∑ i < 11008, ( g · logistic g · u ) · wd[q, i],    g = ∑ h < 4096, x[r, h] · wg[i, h],   u = ∑ h < 4096, x[r, h] · wu[i, h].

  Everything is stated over arrays read at natural-number coordinates (zero outside their extents), so that a sum over
  hidden units is a sum over a range of naturals and the hidden units can be dealt out in 43 runs of 256: the share of
  run `s` is the sum over the units `256 s … 256 s + 255`, and the 43 shares add up to the whole sum.  That regrouping
  uses only that addition of extended reals is commutative and associative; no entry need be finite.
-/
import Idealize.ShloMosaic.PureOps.Ideal.Laws
import Idealize.ShloMosaic.Lib.ValueIdx

noncomputable section

open scoped BigOperators

namespace Cert.Swiglu

open Idealize.ShloMosaic Idealize.ShloMosaic.ValueIdx

/-! ## The activation -/

/-- The binary pattern of `1.0` denotes the real number one. -/
theorem one_f32 : Ideal.ofBits .f32 0x3F800000#32 = 1 := by
  simp [Ideal.ofBits, Ideal.ieee, -EReal.coe_mul]; norm_num

/-- The gated activation: the gate times its logistic, times the up-projection. -/
def act (g u : EReal) : EReal := g * Ideal.logistic g * u

/-- The quotient `1 / (1 + e^(-g))`, its two ones spelt by the pattern of `1.0`, is the logistic of `g` on every
    extended real (at the infinities too: both sides are the same expression). -/
theorem quotient_eq_logistic (g : EReal) :
    Ideal.div (Ideal.ofBits .f32 0x3F800000#32) (Ideal.ofBits .f32 0x3F800000#32 + Ideal.exp (-g)) = Ideal.logistic g := by
  rw [one_f32]; rfl

/-! ## Arrays read at natural-number coordinates -/

/-- A matrix read at natural-number coordinates: zero outside its extents. -/
def mat {A B : Nat} (w : (⟨2, ![A, B]⟩ : Shape).Idx → EReal) (i h : ℕ) : EReal :=
  if hh : i < A ∧ h < B then w (ix2 ⟨i, hh.1⟩ ⟨h, hh.2⟩) else 0

theorem mat_val {A B : Nat} (w : (⟨2, ![A, B]⟩ : Shape).Idx → EReal) (i : Fin A) (h : Fin B) :
    mat w i.val h.val = w (ix2 i h) := dif_pos ⟨i.isLt, h.isLt⟩

/-- The activations, [4, 2048, 4096], read token by token: token `r` is position `r % 2048` of batch `r / 2048`. -/
def rows (x : (⟨3, ![4, 2048, 4096]⟩ : Shape).Idx → EReal) (r h : ℕ) : EReal :=
  if hh : r < 8192 ∧ h < 4096 then x (ix3 ⟨r / 2048, by omega⟩ ⟨r % 2048, by omega⟩ ⟨h, hh.2⟩) else 0

/-- Token `2048 b + s` is position `s` of batch `b`. -/
theorem rows_val (x : (⟨3, ![4, 2048, 4096]⟩ : Shape).Idx → EReal) (b : Fin 4) (s : Fin 2048) (h : Fin 4096) :
    rows x (2048 * b.val + s.val) h.val = x (ix3 b s h) := by
  have hb := b.isLt
  have hs := s.isLt
  unfold rows
  rw [dif_pos ⟨by omega, h.isLt⟩]
  congr 1
  funext a
  match a with
  | ⟨0, _⟩ => exact Fin.ext (by show (2048 * b.val + s.val) / 2048 = b.val; omega)
  | ⟨1, _⟩ => exact Fin.ext (by show (2048 * b.val + s.val) % 2048 = s.val; omega)
  | ⟨2, _⟩ => rfl

/-! ## The layer, and its hidden units dealt out in runs of 256 -/

section Layer

variable (X Wg Wu Wd : ℕ → ℕ → EReal)

/-- Token `r` against row `i` of a weight matrix: the contraction over the 4096 features. -/
def proj (X W : ℕ → ℕ → EReal) (r i : ℕ) : EReal := ∑ h ∈ Finset.range 4096, X r h * W i h

theorem proj_eq_fin (X W : ℕ → ℕ → EReal) (r i : ℕ) : proj X W r i = ∑ h : Fin 4096, X r h.val * W i h.val :=
  Finset.sum_range _

/-- Hidden unit `i`'s contribution to output feature `q` of token `r`. -/
def term (r q i : ℕ) : EReal := act (proj X Wg r i) (proj X Wu r i) * Wd q i

/-- The layer at token `r`, output feature `q`: the sum over all 11008 hidden units. -/
def mlp (r q : ℕ) : EReal := ∑ i ∈ Finset.range 11008, term X Wg Wu Wd r q i

/-- Grid point `n`'s share of it: the 256 hidden units of run `n % 43`. -/
def share (n r q : ℕ) : EReal := ∑ j ∈ Finset.range 256, term X Wg Wu Wd r q (256 * (n % 43) + j)

theorem share_eq_fin (n r q : ℕ) :
    share X Wg Wu Wd n r q = ∑ j : Fin 256, term X Wg Wu Wd r q (256 * (n % 43) + j.val) := Finset.sum_range _

end Layer

/-- `K` consecutive runs of `n` summed run by run are the first `n K` terms summed at once. -/
theorem sum_runs {β : Type*} [AddCommMonoid β] (f : ℕ → β) (n : ℕ) :
    ∀ K : ℕ, ∑ s ∈ Finset.range K, ∑ j ∈ Finset.range n, f (n * s + j) = ∑ i ∈ Finset.range (n * K), f i
  | 0 => by simp
  | K + 1 => by rw [Finset.sum_range_succ, sum_runs f n K, Nat.mul_succ, Finset.sum_range_add]

/-- The shares of the 43 grid points `43 Q … 43 Q + 42` add up to the layer. -/
theorem sum_shares (X Wg Wu Wd : ℕ → ℕ → EReal) (Q r q : ℕ) :
    ∑ s ∈ Finset.range 43, share X Wg Wu Wd (43 * Q + s) r q = mlp X Wg Wu Wd r q := by
  have e := sum_runs (fun i => term X Wg Wu Wd r q i) 256 43
  refine Eq.trans (Finset.sum_congr rfl fun s hs => ?_) e
  have hs' : (43 * Q + s) % 43 = s := by have := Finset.mem_range.mp hs; omega
  unfold share
  rw [hs']

/-- The layer's result as an array [4, 2048, 4096]: entry `(b, s, q)` is token `2048 b + s`, output feature `q`. -/
def layer (x : (⟨3, ![4, 2048, 4096]⟩ : Shape).Idx → EReal) (wg wu : (⟨2, ![11008, 4096]⟩ : Shape).Idx → EReal)
    (wd : (⟨2, ![4096, 11008]⟩ : Shape).Idx → EReal) : (⟨3, ![4, 2048, 4096]⟩ : Shape).Idx → EReal :=
  fun i => mlp (rows x) (mat wg) (mat wu) (mat wd) (2048 * (i 0).val + (i 1).val) (i 2).val

end Cert.Swiglu

end
-- ==== Proof.Body.lean ====
/-
  What one grid point's body adds, entry by entry, at the extended reals.

  The body holds a [512, 4096] block of tokens `xb`, 256 rows of each of the two up-side weight matrices (`gb`, `ub`,
  each [256, 4096]) and the matching 256 columns of the down-side matrix (`db`, [4096, 256]), and the running block
  `acc` [512, 4096].  It forms the 512 × 256 gate and up projections of the tokens against those rows, gates them
  (gate · logistic gate · up), contracts the result against the 256 columns of `db`, and adds that to `acc`.  The
  changes of float format on the way are the identity on the extended reals, and each of the three products goes into
  a zero block, so entry `(p, q)` of what is stored is

      acc[p, q] + ∑ j < 256, act (∑ h, xb[p, h] · gb[j, h]) (∑ h, xb[p, h] · ub[j, h]) · db[q, j].
-/
import proofs.«145176_j39092792328541_2_alg».proof.Proof.Gen.KernelIdeal.Skeleton
import proofs.«145176_j39092792328541_2_alg».proof.Proof.LibMatmulNT
import proofs.«145176_j39092792328541_2_alg».proof.Proof.Swiglu
import Idealize.ShloMosaic.Lib.Pipeline.Value

noncomputable section

open scoped BigOperators

namespace Cert.KernelIdeal.Body

open Idealize.ShloMosaic Idealize.ShloMosaic.ValueIdx Cert.KernelIdeal Cert.KernelIdeal.Gen

/-- Entry `(p, j)` of a [512, 4096] block times the transpose of a [256, 4096] block, into zero. -/
theorem up_apply (xb : FVec Ideal S512x4096 .bf16) (wb : FVec Ideal S256x4096 .bf16) (p : Fin 512) (j : Fin 256) :
    matmul dot_S512x4096_S256x4096_S512x256_1_1_0_0_n_n none xb wb (constant (F := Ideal) S512x256 .f32 0x00000000#32) (ix2 p j)
      = ∑ h : Fin 4096, xb (ix2 p h) * wb (ix2 j h) :=
  LibMatmulNT.matmul_zero_apply 512 4096 256 none xb wb p j

/-- Entry `(p, q)` of a [512, 256] block times the transpose of a [4096, 256] block, into zero. -/
theorem down_apply (a : FVec Ideal S512x256 .bf16) (db : FVec Ideal S4096x256 .bf16) (p : Fin 512) (q : Fin 4096) :
    matmul dot_S512x256_S4096x256_S512x4096_1_1_0_0_n_n none a db (constant (F := Ideal) S512x4096 .f32 0x00000000#32) (ix2 p q)
      = ∑ j : Fin 256, a (ix2 p j) * db (ix2 q j) :=
  LibMatmulNT.matmul_zero_apply 512 256 4096 none a db p q

/-- The block the body stores, at entry `(p, q)`: the running block there plus this point's 256 gated products. -/
theorem stored_apply (xb : Vec Ideal S512x4096 .bf16) (gb ub : Vec Ideal S256x4096 .bf16) (db : Vec Ideal S4096x256 .bf16)
    (acc : Vec Ideal S512x4096 .f32) (p : Fin 512) (q : Fin 4096) :
    k0_pay2 (F := Ideal) xb gb ub db acc (ix2 p q)
      = acc (ix2 p q) + ∑ j : Fin 256,
          Swiglu.act (∑ h : Fin 4096, xb (ix2 p h) * gb (ix2 j h)) (∑ h : Fin 4096, xb (ix2 p h) * ub (ix2 j h)) * db (ix2 q j) := by
  unfold k0_pay2
  simp only [shapeCast_self]
  refine congrArg (acc (ix2 p q) + ·) ?_
  refine (down_apply _ db p q).trans ?_
  refine Finset.sum_congr rfl fun j _ => ?_
  refine congrArg (· * db (ix2 q j)) ?_
  show matmul dot_S512x4096_S256x4096_S512x256_1_1_0_0_n_n none xb gb (constant (F := Ideal) S512x256 .f32 0x00000000#32) (ix2 p j)
      * Ideal.logistic (matmul dot_S512x4096_S256x4096_S512x256_1_1_0_0_n_n none xb gb (constant (F := Ideal) S512x256 .f32 0x00000000#32) (ix2 p j))
      * matmul dot_S512x4096_S256x4096_S512x256_1_1_0_0_n_n none xb ub (constant (F := Ideal) S512x256 .f32 0x00000000#32) (ix2 p j) = _
  rw [up_apply, up_apply]
  rfl

/-- The block the first point of a run stores before anything else: zero everywhere. -/
theorem reset_apply (i : S512x4096.Idx) : k0_pay1 (F := Ideal) i = 0 := by
  unfold k0_pay1
  exact Ideal.ofBits_zero_f32

end Cert.KernelIdeal.Body

end
-- ==== Proof.Pieces.lean ====
/-
  What the body leaves in the output's staging buffer, in each of its two control cases, at any float instance.

  At a point that is not the first of its run the body stores ONE block over the whole buffer: the stored block
  computed from the four input blocks and from what the buffer held before (the running block).  At the first point
  of a run it first stores the zero block over the whole buffer, reads that back, and then stores the same block
  computed from the four input blocks and the zero block.  In both cases every load and store goes through the
  whole-buffer rectangle at zero offsets, through which a load reads the contents and the last store leaves its value.
-/
import proofs.«145176_j39092792328541_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Pieces

open Cert.KernelIdeal Cert.KernelIdeal.Gen

variable {F : FTy → Type} [FloatOps F]

/-- The zero offsets, as the printed rectangles spell them. -/
theorem zero_offsets : (![0, 0] : Fin 2 → Nat) = fun _ => 0 := funext fun a => by fin_cases a <;> rfl

/-- Past the first point of a run: the buffer, holding the running block `acc`, ends holding the stored block of the
    four input blocks and `acc`. -/
theorem left_later (c : Dev nD) (i : grid0.Coords) (a2 : Memref sig .tc .vmem S512x4096 .bf16) (h2 : a2.IsWhole)
    (a3 : Memref sig .tc .vmem S256x4096 .bf16) (h3 : a3.IsWhole) (a4 : Memref sig .tc .vmem S256x4096 .bf16) (h4 : a4.IsWhole)
    (a5 : Memref sig .tc .vmem S4096x256 .bf16) (h5 : a5.IsWhole) (a6 : Memref sig .tc .vmem S512x4096 .f32) (h6 : a6.IsWhole)
    (hc : ¬cond0_0 i) (xb : Vec F S512x4096 .bf16) (gb ub : Vec F S256x4096 .bf16) (db : Vec F S4096x256 .bf16)
    (acc : Vec F S512x4096 .f32) :
    out0_B_4 c i a2 h2 a3 h3 a4 h4 a5 h5 a6 h6 hc xb gb ub db acc = k0_pay2 xb gb ub db acc := by
  unfold out0_B_4
  rw [View.read_writes_eq_canon _ _ _ (cover0_B_4 c i a2 h2 a3 h3 a4 h4 a5 h5 a6 h6 hc xb gb ub db acc)]
  unfold kernelRun0_B
  dsimp only
  rw [View.canon_unit_zero zero_offsets]
  simp only [View.readAt_eq_ld, h2.read_unread, h3.read_unread, h4.read_unread, h5.read_unread, h6.read_unread,
    View.ld_unit_zero (S := S512x4096) zero_offsets, View.ld_unit_zero (S := S256x4096) zero_offsets,
    View.ld_unit_zero (S := S4096x256) zero_offsets]

/-- At the first point of a run: whatever the buffer held, it ends holding the stored block of the four input blocks
    and the zero block. -/
theorem left_first (c : Dev nD) (i : grid0.Coords) (a2 : Memref sig .tc .vmem S512x4096 .bf16) (h2 : a2.IsWhole)
    (a3 : Memref sig .tc .vmem S256x4096 .bf16) (h3 : a3.IsWhole) (a4 : Memref sig .tc .vmem S256x4096 .bf16) (h4 : a4.IsWhole)
    (a5 : Memref sig .tc .vmem S4096x256 .bf16) (h5 : a5.IsWhole) (a6 : Memref sig .tc .vmem S512x4096 .f32) (h6 : a6.IsWhole)
    (hc : cond0_0 i) (xb : Vec F S512x4096 .bf16) (gb ub : Vec F S256x4096 .bf16) (db : Vec F S4096x256 .bf16) :
    out0_A_4 c i a2 h2 a3 h3 a4 h4 a5 h5 a6 h6 hc xb gb ub db = k0_pay2 xb gb ub db (k0_pay1 (F := F)) := by
  unfold out0_A_4
  rw [View.read_writes_eq_canon _ _ _ (cover0_A_4 c i a2 h2 a3 h3 a4 h4 a5 h5 a6 h6 hc xb gb ub db)]
  unfold kernelRun0_A
  dsimp only
  sl_unfold_words
  rw [View.canon_cons_unit_zero (S := S512x4096) zero_offsets, View.readCov_unit_zero (S := S512x4096) _ zero_offsets]
  simp only [View.readAt_eq_ld, h2.read_unread, h3.read_unread, h4.read_unread, h5.read_unread,
    View.ld_unit_zero (S := S512x4096) zero_offsets, View.ld_unit_zero (S := S256x4096) zero_offsets,
    View.ld_unit_zero (S := S4096x256) zero_offsets]

end Cert.KernelIdeal.Pieces

end
-- ==== Proof.LibLayout3.lean ====
/-
  Layout operations of rank-3 blocks read at an index given by coordinates.

  A vector operation that only re-lays a block — a shape cast that inserts a unit axis or flattens two axes into one,
  a broadcast along a unit axis — reads, at an index, its operand at the index with the same row-major position
  (a cast) or with 0 on the broadcast axes (a broadcast). Here that is spelled out, for indices written by their
  coordinates, for the re-layings a pairwise kernel needs: a matrix [a,b] viewed [a,1,b], [1,a,b] or [a,b,1]; a row
  [1,b] viewed [1,1,b]; the flattening [a,b,c] to [a*b,c] and back; and the broadcasts of [a,1,c], [1,b,c], [a,b,1]
  and [1,1,c] to [a,b,c], and of a column [a,1] to [a,b]. General in the extents and in the element type.
-/
import Idealize.ShloMosaic.Lib.Pipeline.Value
import Idealize.ShloMosaic.Lib.ValueIdx
import Idealize.ShloMosaic.Lib.ValueLayout

namespace LibLayout3

open Idealize.ShloMosaic Idealize.ShloMosaic.ValueIdx

variable {α : Type}

/-! ## Shape casts -/

/-- A matrix [a,b] viewed [a,1,b] reads, at (i, u, j), the matrix at (i, j). -/
theorem shapeCast_ab_a1b_apply {a b : ℕ} (x : (⟨2, ![a, b]⟩ : Shape).Idx → α)
    (h : (⟨2, ![a, b]⟩ : Shape).ShapeCasts ⟨3, ![a, 1, b]⟩) (i : Fin a) (u : Fin 1) (j : Fin b) :
    shapeCast ⟨3, ![a, 1, b]⟩ x h (ix3 i u j) = x (ix2 i j) :=
  shapeCast_apply x h _ _ (by
    have hu : u.val = 0 := by omega
    rw [Shape.rowMajor_val_three, Shape.rowMajor_val_two]
    show i.val * b + j.val = (i.val * 1 + u.val) * b + j.val
    rw [hu, Nat.mul_one, Nat.add_zero])

/-- A matrix [a,b] viewed [a,b,1] reads, at (i, j, u), the matrix at (i, j). -/
theorem shapeCast_ab_ab1_apply {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu, Nat.mul_one, Nat.add_zero])

/-- A block [n,c] with n = a*b viewed [a,b,c] reads, at (i, j, k), the block at row i*b + j, column k. -/
theorem shapeCast_nc_abc_apply {n a b c : ℕ} (x : (⟨2, ![n, c]⟩ : Shape).Idx → α)
    (h : (⟨2, ![n, c]⟩ : Shape).ShapeCasts ⟨3, ![a, b, c]⟩) (i : Fin a) (j : Fin b) (k : Fin c) (q : Fin n)
    (hq : q.val = i.val * b + j.val) :
    shapeCast ⟨3, ![a, b, c]⟩ x h (ix3 i j k) = x (ix2 q k) :=
  shapeCast_apply x h _ _ (by
    rw [Shape.rowMajor_val_three, Shape.rowMajor_val_two]
    show q.val * c + k.val = (i.val * b + j.val) * c + k.val
    rw [hq])

/-- A block [a,b,c] viewed [n,c] with n = a*b reads, at row i*b + j and column k, the block at (i, j, k). -/
theorem shapeCast_abc_nc_apply {n a b c : ℕ} (x : (⟨3, ![a, b, c]⟩ : Shape).Idx → α)
    (h : (⟨3, ![a, b, c]⟩ : Shape).ShapeCasts ⟨2, ![n, c]⟩) (i : Fin a) (j : Fin b) (k : Fin c) (q : Fin n)
    (hq : q.val = i.val * b + j.val) :
    shapeCast ⟨2, ![n, c]⟩ x h (ix2 q k) = x (ix3 i j k) :=
  shapeCast_apply x h _ _ (by
    rw [Shape.rowMajor_val_three, Shape.rowMajor_val_two]
    show (i.val * b + j.val) * c + k.val = q.val * c + k.val
    rw [hq])

/-! ## Broadcasts along unit axes -/

/-- [a,1,c] broadcast to [a,b,c] reads, at (i, j, k), the operand at (i, 0, k). -/
theorem broadcastTo_a1c_abc_apply {a b c : ℕ} (v : (⟨3, ![a, 1, c]⟩ : Shape).Idx → α)
    (h : (⟨3, ![a, 1, c]⟩ : Shape).Broadcasts ⟨3, ![a, b, c]⟩) (i : Fin a) (j : Fin b) (k : Fin c) :
    broadcastTo ⟨3, ![a, b, c]⟩ v h (ix3 i j k) = v (ix3 i (0 : Fin 1) k) := by
  refine broadcastTo_apply v h (ix3 i j k) (ix3 i (0 : Fin 1) k) fun ax => ?_
  match ax with
  | ⟨0, _⟩ =>
    show i.val = if a = 1 then 0 else i.val
    split
    · have := i.isLt; omega
    · rfl
  | ⟨1, _⟩ => rfl
  | ⟨2, _⟩ =>
    show k.val = if c = 1 then 0 else k.val
    split
    · have := k.isLt; omega
    · rfl

/-- [1,b,c] broadcast to [a,b,c] reads, at (i, j, k), the operand at (0, j, k). -/
theorem broadcastTo_1bc_abc_apply {a b c : ℕ} (v : (⟨3, ![1, b, c]⟩ : Shape).Idx → α)
    (h : (⟨3, ![1, b, c]⟩ : Shape).Broadcasts ⟨3, ![a, b, c]⟩) (i : Fin a) (j : Fin b) (k : Fin c) :
    broadcastTo ⟨3, ![a, b, c]⟩ v h (ix3 i j k) = v (ix3 (0 : Fin 1) j k) := by
  refine broadcastTo_apply v h (ix3 i j k) (ix3 (0 : Fin 1) j k) fun ax => ?_
  match ax with
  | ⟨0, _⟩ => rfl
  | ⟨1, _⟩ =>
    show j.val = if b = 1 then 0 else j.val
    split
    · have := j.isLt; omega
    · rfl
  | ⟨2, _⟩ =>
    show k.val = if c = 1 then 0 else k.val
    split
    · have := k.isLt; omega
    · rfl

/-- [a,b,1] broadcast to [a,b,c] reads, at (i, j, k), the operand at (i, j, 0). -/
theorem broadcastTo_ab1_abc_apply {a b c : ℕ} (v : (⟨3, ![a, b, 1]⟩ : Shape).Idx → α)
    (h : (⟨3, ![a, b, 1]⟩ : Shape).Broadcasts ⟨3, ![a, b, c]⟩) (i : Fin a) (j : Fin b) (k : Fin c) :
    broadcastTo ⟨3, ![a, b, c]⟩ v h (ix3 i j k) = v (ix3 i j (0 : Fin 1)) := by
  refine broadcastTo_apply v h (ix3 i j k) (ix3 i j (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ => rfl

/-- [1,1,c] broadcast to [a,b,c] reads, at (i, j, k), the operand at (0, 0, k). -/
theorem broadcastTo_11c_abc_apply {a b c : ℕ} (v : (⟨3, ![1, 1, c]⟩ : Shape).Idx → α)
    (h : (⟨3, ![1, 1, c]⟩ : Shape).Broadcasts ⟨3, ![a, b, c]⟩) (i : Fin a) (j : Fin b) (k : Fin c) :
    broadcastTo ⟨3, ![a, b, c]⟩ v h (ix3 i j k) = v (ix3 (0 : Fin 1) (0 : Fin 1) k) := by
  refine broadcastTo_apply v h (ix3 i j k) (ix3 (0 : Fin 1) (0 : Fin 1) k) fun ax => ?_
  match ax with
  | ⟨0, _⟩ => rfl
  | ⟨1, _⟩ => rfl
  | ⟨2, _⟩ =>
    show k.val = if c = 1 then 0 else k.val
    split
    · have := k.isLt; omega
    · rfl

/-- A column [a,1] broadcast to [a,b] reads, at (i, j), the column's entry of row i. -/
theorem broadcastTo_a1_ab_apply {a b : ℕ} (v : (⟨2, ![a, 1]⟩ : Shape).Idx → α)
    (h : (⟨2, ![a, 1]⟩ : Shape).Broadcasts ⟨2, ![a, b]⟩) (i : Fin a) (j : Fin b) :
    broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

end LibLayout3
-- ==== Proof.Blocks.lean ====
/-
  What the kernel's four input windows hold at a grid point, entry by entry, at the extended reals.

  Before the kernel runs, the host flattens the activations [4, 2048, 4096] to [8192, 4096] — row `r` is position
  `r % 2048` of batch `r / 2048` — and changes the format of all four arrays, which on the extended reals changes
  nothing.  Grid point `t` is row tile `t / 43` and hidden run `t % 43`: its token block is rows `512 (t / 43) …`, its
  two up-side blocks are rows `256 (t % 43) …` of the weight matrices, and its down-side block is columns
  `256 (t % 43) …` of the third.
-/
import proofs.«145176_j39092792328541_2_alg».proof.Proof.Gen.KernelIdeal.Frame
import proofs.«145176_j39092792328541_2_alg».proof.Proof.LibLayout3
import proofs.«145176_j39092792328541_2_alg».proof.Proof.Swiglu
import Idealize.ShloMosaic.Lib.Pipeline.Value
import Idealize.ShloMosaic.Lib.StableHlo.Run
import Idealize.ShloMosaic.Lib.Tactic

noncomputable section

open Idealize.ShloMosaic Idealize.ShloMosaic.TcCoe Idealize.SL.Sem Idealize.ShloMosaic.ValueIdx

namespace Cert.KernelIdeal.Blocks

open Cert.KernelIdeal Cert.KernelIdeal.Gen

variable (m : (ℓ : Loc nD τ sig) → Buf (Elt Ideal) ℓ)

/-! ## The arrays as the kernel finds them -/

/-- The flattened activations: row `r`, feature `h`. -/
theorem tokens_found (c : Dev nD) (r : Fin 8192) (h : Fin 4096) :
    (V m c main_v1 : S8192x4096.Idx → EReal) (ix2 r h) = Swiglu.rows (m ((c : Thread nD τ).loc main_arg0)) r.val h.val := by
  have e : (V m c main_v1 : S8192x4096.Idx → EReal)
      = truncf (F := Ideal) .bf16 (shapeCast S8192x4096 (m ((c : Thread nD τ).loc main_arg0)) Gen.shapeCasts_S4x2048x4096_S8192x4096) Gen.bitsLt_bf16_f32 := by
    show StableHlo.after hostOps0 (fun b => m (c, b)) (Proc.devRef .tc main_v1) = _
    after_results <;> rfl
  rw [e]
  have hr := r.isLt
  unfold Swiglu.rows
  rw [dif_pos ⟨r.isLt, h.isLt⟩]
  exact LibLayout3.shapeCast_abc_nc_apply (m ((c : Thread nD τ).loc main_arg0)) Gen.shapeCasts_S4x2048x4096_S8192x4096
    ⟨r.val / 2048, by omega⟩ ⟨r.val % 2048, by omega⟩ h r (by show r.val = r.val / 2048 * 2048 + r.val % 2048; omega)

/-- The gate-side weights: row `i`, feature `h`. -/
theorem gate_found (c : Dev nD) (i : Fin 11008) (h : Fin 4096) :
    (V m c main_v2 : S11008x4096.Idx → EReal) (ix2 i h) = Swiglu.mat (m ((c : Thread nD τ).loc main_arg1)) i.val h.val := by
  have e : (V m c main_v2 : S11008x4096.Idx → EReal)
      = truncf (F := Ideal) .bf16 (m ((c : Thread nD τ).loc main_arg1)) Gen.bitsLt_bf16_f32 := by
    show StableHlo.after hostOps0 (fun b => m (c, b)) (Proc.devRef .tc main_v2) = _
    after_results <;> rfl
  rw [e, Swiglu.mat_val]
  rfl

/-- The up-side weights: row `i`, feature `h`. -/
theorem up_found (c : Dev nD) (i : Fin 11008) (h : Fin 4096) :
    (V m c main_v3 : S11008x4096.Idx → EReal) (ix2 i h) = Swiglu.mat (m ((c : Thread nD τ).loc main_arg2)) i.val h.val := by
  have e : (V m c main_v3 : S11008x4096.Idx → EReal)
      = truncf (F := Ideal) .bf16 (m ((c : Thread nD τ).loc main_arg2)) Gen.bitsLt_bf16_f32 := by
    show StableHlo.after hostOps0 (fun b => m (c, b)) (Proc.devRef .tc main_v3) = _
    after_results <;> rfl
  rw [e, Swiglu.mat_val]
  rfl

/-- The down-side weights: output feature `q`, hidden unit `i`. -/
theorem down_found (c : Dev nD) (q : Fin 4096) (i : Fin 11008) :
    (V m c main_v4 : S4096x11008.Idx → EReal) (ix2 q i) = Swiglu.mat (m ((c : Thread nD τ).loc main_arg3)) q.val i.val := by
  have e : (V m c main_v4 : S4096x11008.Idx → EReal)
      = truncf (F := Ideal) .bf16 (m ((c : Thread nD τ).loc main_arg3)) Gen.bitsLt_bf16_f32 := by
    show StableHlo.after hostOps0 (fun b => m (c, b)) (Proc.devRef .tc main_v4) = _
    after_results <;> rfl
  rw [e, Swiglu.mat_val]
  rfl

/-! ## Which block each window is on at a grid point -/

/-- Decided once over the 688 grid points: the token window and the output window are on row tile `t / 43`, the three
    weight windows on hidden run `t % 43` (the down-side one along its second axis). -/
theorem block_index : ∀ t : Fin cfg0.N,
    (win0_0.index t (0 : Fin 2) = t.val / 43 ∧ win0_0.index t (1 : Fin 2) = 0)
    ∧ (win0_1.index t (0 : Fin 2) = t.val % 43 ∧ win0_1.index t (1 : Fin 2) = 0)
    ∧ (win0_2.index t (0 : Fin 2) = t.val % 43 ∧ win0_2.index t (1 : Fin 2) = 0)
    ∧ (win0_3.index t (0 : Fin 2) = 0 ∧ win0_3.index t (1 : Fin 2) = t.val % 43)
    ∧ (win0_4.index t (0 : Fin 2) = t.val / 43 ∧ win0_4.index t (1 : Fin 2) = 0) :=
  (by decide +kernel : ∀ t : Fin grid0.N,
    (win0_0.index t (0 : Fin 2) = t.val / 43 ∧ win0_0.index t (1 : Fin 2) = 0)
    ∧ (win0_1.index t (0 : Fin 2) = t.val % 43 ∧ win0_1.index t (1 : Fin 2) = 0)
    ∧ (win0_2.index t (0 : Fin 2) = t.val % 43 ∧ win0_2.index t (1 : Fin 2) = 0)
    ∧ (win0_3.index t (0 : Fin 2) = 0 ∧ win0_3.index t (1 : Fin 2) = t.val % 43)
    ∧ (win0_4.index t (0 : Fin 2) = t.val / 43 ∧ win0_4.index t (1 : Fin 2) = 0))

/-! ## The blocks at an entry -/

/-- The four blocks the body reads at point `t`, each at its literal shape: 512 tokens, 256 rows of each up-side weight
    matrix, 256 columns of the down-side one. -/
abbrev tokBlk (c : Dev nD) (t : Fin cfg0.N) : Vec Ideal S512x4096 .bf16 := iblk m c 0 t
abbrev gateBlk (c : Dev nD) (t : Fin cfg0.N) : Vec Ideal S256x4096 .bf16 := iblk m c 1 t
abbrev upBlk (c : Dev nD) (t : Fin cfg0.N) : Vec Ideal S256x4096 .bf16 := iblk m c 2 t
abbrev downBlk (c : Dev nD) (t : Fin cfg0.N) : Vec Ideal S4096x256 .bf16 := iblk m c 3 t

/-- The token block at point `t`: entry `(p, h)` is row `512 (t / 43) + p`, feature `h` of the activations. -/
theorem tokens_block (c : Dev nD) (t : Fin cfg0.N) (p : Fin 512) (h : Fin 4096) :
    tokBlk m c t (ix2 p h)
      = Swiglu.rows (m ((c : Thread nD τ).loc main_arg0)) (512 * (t.val / 43) + p.val) h.val := by
  have hN : t.val < 688 := lt_of_lt_of_eq t.isLt (show cfg0.N = 688 from N_0)
  have hp := p.isLt
  have e := tokens_found m c ⟨512 * (t.val / 43) + p.val, by omega⟩ h
  refine Eq.trans ?_ e
  unfold tokBlk iblk
  rw [View.read_apply]
  show V m c main_v1 _ = V m c main_v1 _
  congr 1
  funext a
  apply Fin.ext
  match a with
  | ⟨0, _⟩ => show win0_0.index t 0 * 512 + 1 * p.val = 512 * (t.val / 43) + p.val; rw [(block_index t).1.1]; omega
  | ⟨1, _⟩ => show win0_0.index t 1 * 4096 + 1 * h.val = h.val; rw [(block_index t).1.2]; omega

/-- The gate-side block at point `t`: entry `(j, h)` is row `256 (t % 43) + j`, feature `h`. -/
theorem gate_block (c : Dev nD) (t : Fin cfg0.N) (j : Fin 256) (h : Fin 4096) :
    gateBlk m c t (ix2 j h)
      = Swiglu.mat (m ((c : Thread nD τ).loc main_arg1)) (256 * (t.val % 43) + j.val) h.val := by
  have hj := j.isLt
  have e := gate_found m c ⟨256 * (t.val % 43) + j.val, by omega⟩ h
  refine Eq.trans ?_ e
  unfold gateBlk iblk
  rw [View.read_apply]
  show V m c main_v2 _ = V m c main_v2 _
  congr 1
  funext a
  apply Fin.ext
  match a with
  | ⟨0, _⟩ => show win0_1.index t 0 * 256 + 1 * j.val = 256 * (t.val % 43) + j.val; rw [(block_index t).2.1.1]; omega
  | ⟨1, _⟩ => show win0_1.index t 1 * 4096 + 1 * h.val = h.val; rw [(block_index t).2.1.2]; omega

/-- The up-side block at point `t`: entry `(j, h)` is row `256 (t % 43) + j`, feature `h`. -/
theorem up_block (c : Dev nD) (t : Fin cfg0.N) (j : Fin 256) (h : Fin 4096) :
    upBlk m c t (ix2 j h)
      = Swiglu.mat (m ((c : Thread nD τ).loc main_arg2)) (256 * (t.val % 43) + j.val) h.val := by
  have hj := j.isLt
  have e := up_found m c ⟨256 * (t.val % 43) + j.val, by omega⟩ h
  refine Eq.trans ?_ e
  unfold upBlk iblk
  rw [View.read_apply]
  show V m c main_v3 _ = V m c main_v3 _
  congr 1
  funext a
  apply Fin.ext
  match a with
  | ⟨0, _⟩ => show win0_2.index t 0 * 256 + 1 * j.val = 256 * (t.val % 43) + j.val; rw [(block_index t).2.2.1.1]; omega
  | ⟨1, _⟩ => show win0_2.index t 1 * 4096 + 1 * h.val = h.val; rw [(block_index t).2.2.1.2]; omega

/-- The down-side block at point `t`: entry `(q, j)` is output feature `q`, hidden unit `256 (t % 43) + j`. -/
theorem down_block (c : Dev nD) (t : Fin cfg0.N) (q : Fin 4096) (j : Fin 256) :
    downBlk m c t (ix2 q j)
      = Swiglu.mat (m ((c : Thread nD τ).loc main_arg3)) q.val (256 * (t.val % 43) + j.val) := by
  have hj := j.isLt
  have e := down_found m c q ⟨256 * (t.val % 43) + j.val, by omega⟩
  refine Eq.trans ?_ e
  unfold downBlk iblk
  rw [View.read_apply]
  show V m c main_v4 _ = V m c main_v4 _
  congr 1
  funext a
  apply Fin.ext
  match a with
  | ⟨0, _⟩ => show win0_3.index t 0 * 4096 + 1 * q.val = q.val; rw [(block_index t).2.2.2.1.1]; omega
  | ⟨1, _⟩ => show win0_3.index t 1 * 256 + 1 * j.val = 256 * (t.val % 43) + j.val; rw [(block_index t).2.2.2.1.2]; omega

end Cert.KernelIdeal.Blocks

end
-- ==== Proof.Fold.lean ====
/-
  What the output's staging buffer holds when it is written back: the whole layer, for its 512 tokens.

  The 688 grid points go row tile by row tile: points `43 Q … 43 Q + 42` all work on the tokens `512 Q … 512 Q + 511`,
  one run of 256 hidden units each.  The first of them stores, into a zeroed buffer, its own share of the layer; each
  later one adds its share to what the point before left; the last one's buffer is written back.  So at the last point
  of row tile `Q` the buffer holds, at entry `(p, q)`, zero plus the 43 shares, which together are the sum over all
  11008 hidden units: the layer at token `512 Q + p`, output feature `q`.
-/
import proofs.«145176_j39092792328541_2_alg».proof.Proof.Body
import proofs.«145176_j39092792328541_2_alg».proof.Proof.Pieces
import proofs.«145176_j39092792328541_2_alg».proof.Proof.Blocks

noncomputable section

open scoped BigOperators

open Idealize.ShloMosaic Idealize.ShloMosaic.TcCoe Idealize.SL.Sem Idealize.ShloMosaic.ValueIdx

namespace Cert.KernelIdeal.Fold

open Cert.KernelIdeal Cert.KernelIdeal.Gen

variable (m : (ℓ : Loc nD τ sig) → Buf (Elt Ideal) ℓ)

/-- The four argument arrays read at natural-number coordinates. -/
abbrev X (c : Dev nD) : ℕ → ℕ → EReal := Swiglu.rows (m ((c : Thread nD τ).loc main_arg0))
abbrev Wg (c : Dev nD) : ℕ → ℕ → EReal := Swiglu.mat (m ((c : Thread nD τ).loc main_arg1))
abbrev Wu (c : Dev nD) : ℕ → ℕ → EReal := Swiglu.mat (m ((c : Thread nD τ).loc main_arg2))
abbrev Wd (c : Dev nD) : ℕ → ℕ → EReal := Swiglu.mat (m ((c : Thread nD τ).loc main_arg3))

/-- What the body stores at point `t` over a running block `acc`: at entry `(p, q)`, `acc` there plus the point's share of
    the layer at token `512 (t / 43) + p`, output feature `q`. -/
theorem stored_at (c : Dev nD) (t : Fin cfg0.N) (acc : Vec Ideal S512x4096 .f32) (p : Fin 512) (q : Fin 4096) :
    k0_pay2 (F := Ideal) (iblk m c 0 t) (iblk m c 1 t) (iblk m c 2 t) (iblk m c 3 t) acc (ix2 p q)
      = acc (ix2 p q) + Swiglu.share (X m c) (Wg m c) (Wu m c) (Wd m c) t.val (512 * (t.val / 43) + p.val) q.val := by
  refine (Body.stored_apply (Blocks.tokBlk m c t) (Blocks.gateBlk m c t) (Blocks.upBlk m c t) (Blocks.downBlk m c t) acc p q).trans ?_
  refine congrArg (acc (ix2 p q) + ·) ?_
  rw [Swiglu.share_eq_fin]
  refine Finset.sum_congr rfl fun j _ => ?_
  unfold Swiglu.term
  rw [Swiglu.proj_eq_fin, Swiglu.proj_eq_fin]
  refine congrArg₂ (fun a b : EReal => a * b) (congrArg₂ Swiglu.act ?_ ?_) (Blocks.down_block m c t q j)
  · exact Finset.sum_congr rfl fun h _ =>
      congrArg₂ (fun a b : EReal => a * b) (Blocks.tokens_block m c t p h) (Blocks.gate_block m c t j h)
  · exact Finset.sum_congr rfl fun h _ =>
      congrArg₂ (fun a b : EReal => a * b) (Blocks.tokens_block m c t p h) (Blocks.up_block m c t j h)

/-- The first point of a run leaves the stored block over the zero block; -/
def first (c : Dev nD) (n : ℕ) (hn : n < cfg0.N) : Vec Ideal S512x4096 .f32 :=
  k0_pay2 (F := Ideal) (iblk m c 0 ⟨n, hn⟩) (iblk m c 1 ⟨n, hn⟩) (iblk m c 2 ⟨n, hn⟩) (iblk m c 3 ⟨n, hn⟩) (k0_pay1 (F := Ideal))

/-- a later point the stored block over what the point before left. -/
def later (c : Dev nD) (n : ℕ) (hn : n < cfg0.N) (acc : Vec Ideal S512x4096 .f32) : Vec Ideal S512x4096 .f32 :=
  k0_pay2 (F := Ideal) (iblk m c 0 ⟨n, hn⟩) (iblk m c 1 ⟨n, hn⟩) (iblk m c 2 ⟨n, hn⟩) (iblk m c 3 ⟨n, hn⟩) acc

theorem at_first (c : Dev nD) (n : ℕ) (hn : n < cfg0.N) (h0 : n % 43 = 0) : outsAt0 m c n hn = first m c n hn :=
  (outsAt0_A m c ⟨n, hn⟩ h0).trans (Pieces.left_first ..)

theorem at_later (c : Dev nD) (n : ℕ) (hn : n + 1 < cfg0.N) (h0 : ¬(n + 1) % 43 = 0) :
    outsAt0 m c (n + 1) hn = later m c (n + 1) hn (outsAt0 m c n (Nat.lt_of_succ_lt hn)) :=
  (outsAt0_B m c ⟨n + 1, hn⟩ h0).trans (Pieces.left_later ..)

/-- At the last point of row tile `t / 43` the buffer holds the layer for the tile's tokens. -/
theorem tile_total (c : Dev nD) (t : Fin cfg0.N) (hf : t.val % 43 = 42) (p : Fin 512) (q : Fin 4096) :
    outsAt0 m c t.val t.isLt (ix2 p q)
      = Swiglu.mlp (X m c) (Wg m c) (Wu m c) (Wd m c) (512 * (t.val / 43) + p.val) q.val := by
  have hN : cfg0.N = 688 := N_0
  have ht := t.isLt
  have h' : 43 * (t.val / 43) + t.val % 43 < cfg0.N := by rw [Nat.div_add_mod]; exact t.isLt
  rw [Pipeline.eq_accAt_of_mod (outsAt0 m c) 43 (first m c) (later m c) (at_first m c) (at_later m c) (by decide) t.val t.isLt h']
  refine (Pipeline.accAt_add_apply (first m c) (later m c) (fun _ => (0 : EReal))
    (fun n i => Swiglu.share (X m c) (Wg m c) (Wu m c) (Wd m c) n (512 * (t.val / 43) + (i 0).val) (i 1).val)
    (43 * (t.val / 43)) 42 ?_ ?_ (t.val % 43) (by omega) h' (ix2 p q)).trans ?_
  · intro h i
    obtain ⟨p', q', rfl⟩ : ∃ (p' : Fin 512) (q' : Fin 4096), i = ix2 p' q' := ⟨i 0, i 1, eq_ix2 i⟩
    refine (stored_at m c ⟨43 * (t.val / 43), h⟩ _ p' q').trans ?_
    rw [Body.reset_apply]
    show (0 : EReal) + Swiglu.share _ _ _ _ (43 * (t.val / 43)) (512 * (43 * (t.val / 43) / 43) + p'.val) q'.val = _
    rw [Nat.mul_div_cancel_left _ (by decide : 0 < 43)]
  · intro n h acc i hb he
    obtain ⟨p', q', rfl⟩ : ∃ (p' : Fin 512) (q' : Fin 4096), i = ix2 p' q' := ⟨i 0, i 1, eq_ix2 i⟩
    refine (stored_at m c ⟨n, h⟩ acc p' q').trans ?_
    have hq : n / 43 = t.val / 43 := by omega
    show acc (ix2 p' q') + Swiglu.share _ _ _ _ n (512 * (n / 43) + p'.val) q'.val = _
    rw [hq]
  · rw [hf]
    show (0 : EReal) + ∑ s ∈ Finset.range 43, Swiglu.share (X m c) (Wg m c) (Wu m c) (Wd m c) (43 * (t.val / 43) + s) (512 * (t.val / 43) + p.val) q.val = _
    rw [zero_add]
    exact Swiglu.sum_shares _ _ _ _ _ _ _

end Cert.KernelIdeal.Fold

end
-- ==== Proof.Result.lean ====
/-
  The kernel program's result: the layer.

  Each of the 16 row tiles is written back once, at the last of its 43 grid points, and holds the layer for its 512
  tokens; the 16 tiles cover the [8192, 4096] output array, which therefore ends holding the layer token by token.
  After the kernel the host un-flattens that array to [4, 2048, 4096]: entry `(b, s, q)` is row `2048 b + s`.
-/
import proofs.«145176_j39092792328541_2_alg».proof.Proof.Fold
import Idealize.ShloMosaic.Lib.Pipeline.Value
import Idealize.ShloMosaic.Lib.StableHlo.Run
import Idealize.ShloMosaic.Lib.Tactic

noncomputable section

open Idealize.ShloMosaic Idealize.ShloMosaic.TcCoe Idealize.SL.Sem Idealize.ShloMosaic.ValueIdx
open Idealize.ShloMosaic.Pipeline (Dat)

namespace Cert.KernelIdeal.Result

open Cert.KernelIdeal Cert.KernelIdeal.Gen

variable (m : (ℓ : Loc nD τ sig) → Buf (Elt Ideal) ℓ) (ρ : Dev nD → PrngReg)

/-- The layer token by token, as an array [8192, 4096]. -/
def tokensOut (c : Dev nD) : S8192x4096.Idx → EReal :=
  fun i => Swiglu.mlp (Fold.X m c) (Fold.Wg m c) (Fold.Wu m c) (Fold.Wd m c) (i 0).val (i 1).val

/-- At the last point of a row tile the buffer holds the layer for the tile's tokens, at any entry. -/
theorem tile_total (c : Dev nD) (t : Fin cfg0.N) (hf : t.val % 43 = 42) (i : S512x4096.Idx) :
    outsAt0 m c t.val t.isLt i
      = Swiglu.mlp (Fold.X m c) (Fold.Wg m c) (Fold.Wu m c) (Fold.Wd m c) (512 * (t.val / 43) + (i 0).val) (i 1).val := by
  obtain ⟨p, q, rfl⟩ : ∃ (p : Fin 512) (q : Fin 4096), i = ix2 p q := ⟨i 0, i 1, eq_ix2 i⟩
  exact Fold.tile_total m c t hf p q

/-- What a write-back writes is the point's block of the layer. -/
theorem written_back (c : Dev nD) (t : Fin cfg0.N) (hf : (cfg0.win 4).flush t = true) :
    (dats m 0 c).flushed 4 t = ((cfg0.win 4).blk t).view.read (Elt Ideal) (tokensOut m c) := by
  have h42 : t.val % 43 = 42 := (flush0_4 t).mp hf
  show (cfg0.win 4).cut (grid0.coords t) ((dats m 0 c).after 4 t) = _
  rw [after0_4]
  funext y
  show outsAt0 m c t.val t.isLt ((cfg0.win 4).xinj (grid0.coords t) y) = tokensOut m c (((cfg0.win 4).blk t).view.emb y)
  refine (tile_total m c t h42 _).trans ?_
  unfold tokensOut
  have e0 : 512 * (t.val / 43) + (y 0).val = ((((cfg0.win 4).blk t).view.emb y) 0).val := by
    show _ = win0_4.index t 0 * 512 + 1 * (y 0).val
    rw [(Blocks.block_index t).2.2.2.2.1]; omega
  have e1 : (y 1).val = ((((cfg0.win 4).blk t).view.emb y) 1).val := by
    show _ = win0_4.index t 1 * 4096 + 1 * (y 1).val
    rw [(Blocks.block_index t).2.2.2.2.2]; omega
  exact congrArg₂ (Swiglu.mlp (Fold.X m c) (Fold.Wg m c) (Fold.Wu m c) (Fold.Wd m c)) e0 e1

/-- An entry of the output array is in point `t`'s block iff each coordinate is in the block's range on its axis. -/
theorem mem_block (t : Fin cfg0.N) (i : S8192x4096.Idx) :
    i ∈ ((cfg0.win 4).blk t).view.set
      ↔ ∀ a : Fin 2, win0_4.index t a * S512x4096.size a ≤ (i a).val ∧ (i a).val < win0_4.index t a * S512x4096.size a + S512x4096.size a := by
  show i ∈ ((View.whole main_v5).slice (win0_4.rect t)).set ↔ _
  rw [View.set_slice_whole, Rect.mem_set_unit]
  exact Iff.rfl

/-- Every entry of the output array is in the block of the last point of its row tile. -/
theorem covered (i : S8192x4096.Idx) :
    ∃ t : Fin cfg0.N, (cfg0.win 4).flush t = true ∧ i ∈ ((cfg0.win 4).blk t).view.set := by
  have hN : cfg0.N = 688 := N_0
  have hi0 : (i 0).val < 8192 := (i 0).isLt
  have hi1 : (i 1).val < 4096 := (i 1).isLt
  have ht : 43 * ((i 0).val / 512) + 42 < cfg0.N := by omega
  have hq : (43 * ((i 0).val / 512) + 42) / 43 = (i 0).val / 512 := by omega
  refine ⟨⟨43 * ((i 0).val / 512) + 42, ht⟩, (flush0_4 _).mpr (by show (43 * ((i 0).val / 512) + 42) % 43 = 42; omega), ?_⟩
  rw [mem_block]
  intro a
  match a with
  | ⟨0, _⟩ =>
    show win0_4.index ⟨43 * ((i 0).val / 512) + 42, ht⟩ 0 * 512 ≤ (i 0).val
      ∧ (i 0).val < win0_4.index ⟨43 * ((i 0).val / 512) + 42, ht⟩ 0 * 512 + 512
    rw [(Blocks.block_index ⟨43 * ((i 0).val / 512) + 42, ht⟩).2.2.2.2.1]
    show (43 * ((i 0).val / 512) + 42) / 43 * 512 ≤ (i 0).val ∧ (i 0).val < (43 * ((i 0).val / 512) + 42) / 43 * 512 + 512
    rw [hq]; omega
  | ⟨1, _⟩ =>
    show win0_4.index ⟨43 * ((i 0).val / 512) + 42, ht⟩ 1 * 4096 ≤ (i 1).val
      ∧ (i 1).val < win0_4.index ⟨43 * ((i 0).val / 512) + 42, ht⟩ 1 * 4096 + 4096
    rw [(Blocks.block_index ⟨43 * ((i 0).val / 512) + 42, ht⟩).2.2.2.2.2]
    omega

/-- The output array after the kernel: the layer token by token. -/
theorem array_after (c : Dev nD) : (dats m 0 c).arrAt 4 cfg0.N = tokensOut m c :=
  (dats m 0 c).arrAt_eq_of_cover 4 (tokensOut m c) (written_back m c) covered

/-- The program's result after the host's un-flattening: the layer. -/
theorem result_eq (c : Dev nD) :
    Pipeline.afterTail₀ cfgs (dats m) 0 (V0 m) [hostOps1] c main_v6
      = Swiglu.layer (m ((c : Thread nD τ).loc main_arg0)) (m ((c : Thread nD τ).loc main_arg1))
          (m ((c : Thread nD τ).loc main_arg2)) (m ((c : Thread nD τ).loc main_arg3)) := by
  unfold Pipeline.afterTail₀
  show StableHlo.after hostOps1 _ (Proc.devRef .tc main_v6) = _
  after_results
  funext i
  obtain ⟨b, s, q, rfl⟩ : ∃ (b : Fin 4) (s : Fin 2048) (q : Fin 4096), i = ix3 b s q := ⟨i 0, i 1, i 2, eq_ix3 i⟩
  show shapeCast S4x2048x4096 (Pipeline.withArrays spec0 c (V0 m c) (fun w => (dats m 0 c).arrAt w cfg0.N) (Proc.devRef .tc main_v5))
      Gen.shapeCasts_S8192x4096_S4x2048x4096 (ix3 b s q) = _
  rw [show Pipeline.withArrays spec0 c (V0 m c) (fun w => (dats m 0 c).arrAt w cfg0.N) (Proc.devRef .tc main_v5) = tokensOut m c from
    (Pipeline.withArrays_arr spec0 launch0.win.arr_inj c _ _ 4).trans (array_after m c)]
  have hb := b.isLt
  have hs := s.isLt
  rw [LibLayout3.shapeCast_nc_abc_apply (tokensOut m c) _ b s q ⟨2048 * b.val + s.val, by omega⟩
    (by show 2048 * b.val + s.val = b.val * 2048 + s.val; omega)]
  rfl

/-- The run, read: on every core the program ends with its result at the layer of the argument arrays, and the four
    argument arrays as they were. -/
theorem run : θ_run defs (onTc (τ := τ) (main (F := Ideal))) ⟨m, fun _ => 0, ρ⟩ fun r => ∀ c : Dev nD,
      r.2.mem ((c.tc : Thread nD τ).loc main_v6)
        = Swiglu.layer (m ((c.tc : Thread nD τ).loc main_arg0)) (m ((c.tc : Thread nD τ).loc main_arg1))
            (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨((h c).2 main_v6 (Pipeline.mem_restRefs_of main_v6 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.KernelIdeal.Result

end
-- ==== Proof.RefSpec.lean ====
/-
  The reference program computes the layer.

  Read one operation at a time, the reference forms the gate and up projections of every token (contractions over the
  4096 features), multiplies the gate by `1 / (1 + e^(-gate))` — which on the extended reals is the logistic of the
  gate, at the infinities too — and by the up projection, and contracts the result over all 11008 hidden units with
  the down-side matrix: at entry `(b, s, q)` that is the layer at token `2048 b + s`, output feature `q`.
-/
import proofs.«145176_j39092792328541_2_alg».proof.Proof.Gen.ReferenceIdeal.Read
import proofs.«145176_j39092792328541_2_alg».proof.Proof.Swiglu

noncomputable section

open scoped BigOperators

open Idealize.ShloMosaic Idealize.ShloMosaic.ValueIdx

namespace Cert.ReferenceIdeal.Spec

open Cert.ReferenceIdeal Cert.ReferenceIdeal.Gen Cert.ReferenceIdeal.Read

variable (x : (⟨S4x2048x4096, .f32⟩ : BufTy).Contents (Elt Ideal)) (wg wu : (⟨S11008x4096, .f32⟩ : BufTy).Contents (Elt Ideal))
  (wd : (⟨S4096x11008, .f32⟩ : BufTy).Contents (Elt Ideal))

/-- The gate projection at entry `(b, s, k)`: token `2048 b + s` against row `k` of the gate-side weights. -/
theorem gate_apply (i : S4x2048x4096.Idx) (k : Fin 11008) :
    val_main_v0 (F := Ideal) x wg (lidx_main_v4 i k)
      = Swiglu.proj (Swiglu.rows x) (Swiglu.mat wg) (2048 * (i 0).val + (i 1).val) k.val := by
  rw [val_main_v0_apply, Swiglu.proj_eq_fin]
  refine Finset.sum_congr rfl fun h _ => congrArg₂ (· * ·) ?_ ?_
  · rw [Swiglu.rows_val x (i 0) (i 1) h]
    congr 1
    funext a
    match a with
    | ⟨0, _⟩ => rfl
    | ⟨1, _⟩ => rfl
    | ⟨2, _⟩ => rfl
  · rw [Swiglu.mat_val wg k h]
    congr 1
    funext a
    match a with
    | ⟨0, _⟩ => rfl
    | ⟨1, _⟩ => rfl

/-- The up projection at entry `(b, s, k)`: the same against the up-side weights. -/
theorem up_apply (i : S4x2048x4096.Idx) (k : Fin 11008) :
    val_main_v1 (F := Ideal) x wu (lidx_main_v4 i k)
      = Swiglu.proj (Swiglu.rows x) (Swiglu.mat wu) (2048 * (i 0).val + (i 1).val) k.val := by
  rw [val_main_v1_apply, Swiglu.proj_eq_fin]
  refine Finset.sum_congr rfl fun h _ => congrArg₂ (· * ·) ?_ ?_
  · rw [Swiglu.rows_val x (i 0) (i 1) h]
    congr 1
    funext a
    match a with
    | ⟨0, _⟩ => rfl
    | ⟨1, _⟩ => rfl
    | ⟨2, _⟩ => rfl
  · rw [Swiglu.mat_val wu k h]
    congr 1
    funext a
    match a with
    | ⟨0, _⟩ => rfl
    | ⟨1, _⟩ => rfl

/-- The reference's result is the layer. -/
theorem result_eq : val_main_v4 (F := Ideal) x wg wu wd = Swiglu.layer x wg wu wd := by
  funext i
  rw [val_main_v4_apply]
  unfold Swiglu.layer Swiglu.mlp
  rw [Finset.sum_range]
  refine Finset.sum_congr rfl fun k _ => ?_
  unfold Swiglu.term
  refine congrArg₂ (· * ·) ?_ ?_
  · rw [val_main_v3_apply, val_main_v2_apply, val_main_call0_v5_apply, val_main_call0_v4_apply, val_main_call0_cst_0_apply,
      val_main_call0_v3_apply, val_main_call0_v2_apply, val_main_call0_cst_apply, val_main_call0_v1_apply,
      val_main_call0_v0_apply, gate_apply, up_apply]
    simp only [Ideal.mulf_def, Ideal.hostDivf_def, Ideal.addf_def, Ideal.hostUnary_exp_def, Ideal.hostNegf_def, Ideal.negf_def,
      Ideal.ofBits_def]
    rw [Swiglu.quotient_eq_logistic]
    rfl
  · rw [Swiglu.mat_val wd (i 2) k]
    congr 1
    funext a
    match a with
    | ⟨0, _⟩ => rfl
    | ⟨1, _⟩ => rfl

end Cert.ReferenceIdeal.Spec

end
-- ==== Proof.lean ====
/-
  A gated feed-forward layer computed tile by tile against the same layer computed at once.

  For 8192 tokens of 4096 features the layer forms, per token, 11008 hidden units — each the gate projection times its
  logistic times the up projection — and contracts them with a third matrix back to 4096 features.  The kernel walks a
  grid of 16 row tiles of 512 tokens by 43 runs of 256 hidden units: at each point it forms the 512 × 256 gated hidden
  block of its tile and run, contracts it with the matching 256 columns of the third matrix, and adds the product into
  the tile's output block, which it zeroes at the first run and writes back after the last.  The reference forms all
  hidden units of all tokens and contracts once.

  On the extended reals the two agree entry by entry.  The changes of float format on the kernel's side are the
  identity there; the kernel's logistic and the reference's `1 / (1 + e^(-g))` are one function, at the infinities
  too; every matrix product, the kernel's into a zero block and the reference's, is the plain sum of products; and
  the kernel's zero plus 43 partial sums of 256 terms is the reference's one sum of 11008 terms, addition of extended
  reals being commutative and associative.  Nothing in this needs an entry to be finite, so the precondition is not
  opened.

  Proof/Swiglu.lean states the layer and the regrouping of its sum; Proof/RefSpec.lean reads the reference's
  operations to it; Proof/Body.lean, Proof/Pieces.lean and Proof/Blocks.lean read one grid point's body, what it leaves
  in the output's buffer, and the blocks it is given; Proof/Fold.lean adds up a row tile's 43 points;
  Proof/Result.lean covers the output array with the 16 tiles and reads the host's re-layout after the kernel.
  The three programs terminate without fault and leave their argument arrays as they were (the frames); the
  idealized kernel is the printed kernel read at the extended reals with no rewrite, so nothing is owed for it.
-/
import proofs.«145176_j39092792328541_2_alg».proof.Defs
import proofs.«145176_j39092792328541_2_alg».proof.Proof.Result
import proofs.«145176_j39092792328541_2_alg».proof.Proof.RefSpec
import proofs.«145176_j39092792328541_2_alg».proof.Proof.Gen.Kernel
import proofs.«145176_j39092792328541_2_alg».proof.Proof.Gen.Kernel.Skeleton
import proofs.«145176_j39092792328541_2_alg».proof.Proof.Gen.Kernel.Launch
import proofs.«145176_j39092792328541_2_alg».proof.Proof.Gen.Kernel.Points
import proofs.«145176_j39092792328541_2_alg».proof.Proof.Gen.Kernel.Frame
import proofs.«145176_j39092792328541_2_alg».proof.Proof.Gen.KernelIdeal
import proofs.«145176_j39092792328541_2_alg».proof.Proof.Gen.KernelIdeal.Skeleton
import proofs.«145176_j39092792328541_2_alg».proof.Proof.Gen.KernelIdeal.Launch
import proofs.«145176_j39092792328541_2_alg».proof.Proof.Gen.KernelIdeal.Points
import proofs.«145176_j39092792328541_2_alg».proof.Proof.Gen.KernelIdeal.Frame
import proofs.«145176_j39092792328541_2_alg».proof.Proof.Gen.ReferenceIdeal
import proofs.«145176_j39092792328541_2_alg».proof.Proof.Gen.ReferenceIdeal.Run
import proofs.«145176_j39092792328541_2_alg».proof.Proof.Gen.ReferenceIdeal.Read
import proofs.«145176_j39092792328541_2_alg».proof.Proof.Gen.Pre_finite_inputs
import Idealize.ShloMosaic.Adequacy
import Idealize.ShloMosaic.Init

noncomputable section

namespace Cert.Proof

open Idealize.ShloMosaic Idealize.SL.Sem

/-- The printed kernel runs and leaves its arguments as they were. -/
theorem frame_kernel : Cert.frame_Kernel := fun m ρ _ => Cert.Kernel.Gen.frame m ρ

/-- So does the kernel read at the extended reals. -/
theorem frame_ideal : Cert.frame_KernelIdeal := fun m ρ _ => Cert.KernelIdeal.Gen.frame m ρ

/-- So does the reference: its run, the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the four arguments, both programs end with the layer of those arguments. -/
theorem algebraic : Cert.algebraic_KernelIdeal_ReferenceIdeal := by
  intro m ρ m' ρ' _ hagree
  refine ⟨fun c => Cert.Swiglu.layer (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)),
    Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v4_eq, Cert.ReferenceIdeal.Spec.result_eq, (hagree c).1, (hagree c).2.1,
    (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_kernel, frame_ideal, frame_reference, preserves, algebraic⟩

end Cert.Proof

end
